-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x165 : Shape := ⟨2, ![100000, 165]⟩
abbrev S2x1600000 : Shape := ⟨2, ![2, 1600000]⟩
abbrev S128x165 : Shape := ⟨2, ![128, 165]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S100000x165 : S_.BroadcastsInDim S100000x165 (![] : Fin 0 → Fin S100000x165.rank)
  reducesTo_S100000x165_S_d0_1 : S100000x165.ReducesTo [0, 1] S_
  h_S_ : 0 < S_.numel
  bcast_S_S128x165 : S_.BroadcastsInDim S128x165 (![] : Fin 0 → Fin S128x165.rank)
  reducesTo_S128x165_S_d0_1 : S128x165.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1x128 .f32) (main_arg6 : FVec F S1 .f32) (main_arg7 : FVec F S1x128 .f32) (main_v13 : IVec S_ 1) (main_v16 : IVec S128x165 1) : IVec S_ 1 :=
  let main_c_5 : IVec S_ 1 := constantI S_ 1 1#1
  let main_v17 : IVec S_ 1 := (fun x v => Host.reduce IntOp.andi x v reducesTo_S128x165_S_d0_1 h_S_) main_v16 main_c_5
  let main_v18 : IVec S_ 1 := andi main_v13 main_v17
  let main_v19 : FVec F S1x128 .f32 := Host.absf main_arg5
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1x128 .f32 := Host.absf main_arg7
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  main_v33

def fn {F : FTy → Type} [FloatOps F] (main_arg0 : FVec F S100000x165 .f32) (main_arg1 : IVec S2x1600000 32) (main_arg2 : FVec F S128x165 .f32) (main_arg3 : FVec F S128 .f32) (main_arg4 : FVec F S128x165 .f32) (main_arg5 : FVec F S1x128 .f32) (main_arg6 : FVec F S1 .f32) (main_arg7 : FVec F S1x128 .f32) : IVec S_ 1 :=
  let main_v0 : FVec F S100000x165 .f32 := Host.absf main_arg0
  let main_cst : FVec F S_ .f32 := constant S_ .f32 0x7F800000#32
  let main_v1 : FVec F S100000x165 .f32 := broadcastInDim S100000x165 ![] bcast_S_S100000x165 main_cst
  let main_v2 : IVec S100000x165 1 := cmpf .olt main_v0 main_v1
  let main_c : IVec S_ 1 := constantI S_ 1 1#1
  let main_v3 : IVec S_ 1 := (fun x v => Host.reduce IntOp.andi x v reducesTo_S100000x165_S_d0_1 h_S_) main_v2 main_c
  let main_v4 : FVec F S128x165 .f32 := Host.absf main_arg2
  let main_cst_0 : FVec F S_ .f32 := constant S_ .f32 0x7F800000#32
  let main_v5 : FVec F S128x165 .f32 := broadcastInDim S128x165 ![] bcast_S_S128x165 main_cst_0
  let main_v6 : IVec S128x165 1 := cmpf .olt main_v4 main_v5
  let main_c_1 : IVec S_ 1 := constantI S_ 1 1#1
  let main_v7 : IVec S_ 1 := (fun x v => Host.reduce IntOp.andi x v reducesTo_S128x165_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x165 .f32 := Host.absf main_arg4
  let main_cst_4 : FVec F S_ .f32 := constant S_ .f32 0x7F800000#32
  let main_v15 : FVec F S128x165 .f32 := broadcastInDim S128x165 ![] bcast_S_S128x165 main_cst_4
  let main_v16 : IVec S128x165 1 := cmpf .olt main_v14 main_v15
  fn_part1 (F := F) main_arg5 main_arg6 main_arg7 main_v13 main_v16
-- ==== Kernel.lean ====
abbrev S100000x165 : Shape := ⟨2, ![100000, 165]⟩
abbrev S2x1600000 : Shape := ⟨2, ![2, 1600000]⟩
abbrev S128x165 : Shape := ⟨2, ![128, 165]⟩
abbrev S128 : Shape := ⟨1, ![128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x165 : Shape := ⟨2, ![1600000, 165]⟩
abbrev S165x128 : Shape := ⟨2, ![165, 128]⟩
abbrev S100000x128 : Shape := ⟨2, ![100000, 128]⟩
abbrev S5000x165 : Shape := ⟨2, ![5000, 165]⟩
abbrev S5000x128 : Shape := ⟨2, ![5000, 128]⟩
abbrev S1600000x128 : Shape := ⟨2, ![1600000, 128]⟩
abbrev S128x1 : Shape := ⟨2, ![128, 1]⟩
abbrev S1x1 : Shape := ⟨2, ![1, 1]⟩
abbrev S100000x1 : Shape := ⟨2, ![100000, 1]⟩
abbrev S5000x1 : Shape := ⟨2, ![5000, 1]⟩

abbrev nBuf : Space → Nat
  | .hbm => 46
  | .vmem => 18
  | .smem => 0
  | _ => 0

abbrev bufTy : (tb : Table) → Fin (tcTables nBuf tb) → BufTy
  | .hbm, ⟨0, _⟩ => ⟨S100000x165, .f32⟩
  | .hbm, ⟨1, _⟩ => ⟨S2x1600000, .i32⟩
  | .hbm, ⟨2, _⟩ => ⟨S128x165, .f32⟩
  | .hbm, ⟨3, _⟩ => ⟨S128, .f32⟩
  | .hbm, ⟨4, _⟩ => ⟨S128x165, .f32⟩
  | .hbm, ⟨5, _⟩ => ⟨S1x128, .f32⟩
  | .hbm, ⟨6, _⟩ => ⟨S1, .f32⟩
  | .hbm, ⟨7, _⟩ => ⟨S1x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x165, .f32⟩
  | .hbm, ⟨21, _⟩ => ⟨S_, .f32⟩
  | .hbm, ⟨22, _⟩ => ⟨S100000x165, .f32⟩
  | .hbm, ⟨23, _⟩ => ⟨S1600000x1, .i32⟩
  | .hbm, ⟨24, _⟩ => ⟨S100000x165, .f32⟩
  | .hbm, ⟨25, _⟩ => ⟨S165x128, .f32⟩
  | .hbm, ⟨26, _⟩ => ⟨S165x128, .f32⟩
  | .hbm, ⟨27, _⟩ => ⟨S1x128, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S128x1, .f32⟩
  | .hbm, ⟨43, _⟩ => ⟨S128x1, .f32⟩
  | .hbm, ⟨44, _⟩ => ⟨S1x1, .f32⟩
  | .hbm, ⟨45, _⟩ => ⟨S100000x1, .f32⟩
  | .local _ .vmem, ⟨0, _⟩ => ⟨S5000x165, .f32⟩
  | .local _ .vmem, ⟨1, _⟩ => ⟨S5000x165, .f32⟩
  | .local _ .vmem, ⟨2, _⟩ => ⟨S5000x165, .f32⟩
  | .local _ .vmem, ⟨3, _⟩ => ⟨S5000x165, .f32⟩
  | .local _ .vmem, ⟨4, _⟩ => ⟨S165x128, .f32⟩
  | .local _ .vmem, ⟨5, _⟩ => ⟨S1x128, .f32⟩
  | .local _ .vmem, ⟨6, _⟩ => ⟨S165x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x1, .f32⟩
  | .local _ .vmem, ⟨14, _⟩ => ⟨S1x1, .f32⟩
  | .local _ .vmem, ⟨15, _⟩ => ⟨S128x1, .f32⟩
  | .local _ .vmem, ⟨16, _⟩ => ⟨S5000x1, .f32⟩
  | .local _ .vmem, ⟨17, _⟩ => ⟨S5000x1, .f32⟩
  | _, _ => ⟨S100000x165, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x165 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x165 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S165x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S165x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x165 : S_.BroadcastsInDim S100000x165 (![] : Fin 0 → Fin S100000x165.rank)
  transposes_S128x165_S165x128_1_0 : S128x165.Transposes [1, 0] S165x128
  shapeCasts_S128_S1x128 : S128.ShapeCasts S1x128
  inb_S5000x165_S5000x165_0_0 : ∀ a, (![0, 0] : Fin 2 → Nat) a + S5000x165.size a ≤ S5000x165.size a
  h_S5000x165 : 0 < S5000x165.numel
  shapeCasts_S5000x165_S5000x165 : S5000x165.ShapeCasts S5000x165
  bitsLt_bf16_f32 : FTy.bits .bf16 < FTy.bits .f32
  inb_S165x128_S165x128_0_0 : ∀ a, (![0, 0] : Fin 2 → Nat) a + S165x128.size a ≤ S165x128.size a
  h_S165x128 : 0 < S165x128.numel
  shapeCasts_S165x128_S165x128 : S165x128.ShapeCasts S165x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  transposes_S1x128_S128x1_1_0 : S1x128.Transposes [1, 0] S128x1
  shapeCasts_S1_S1x1 : S1.ShapeCasts S1x1
  shapeCasts_S5000x128_S5000x128 : S5000x128.ShapeCasts S5000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x165_S1600000x1_S1600000x165_1_0_n_n_0_1_1165_wf : GatherDims.WF S100000x165 S1600000x1 S1600000x165 [1] [0] [] [0] [] 1 ![1, 165]
  scatter_S100000x165_S1600000x1_S1600000x165_1_0_0_1_wf : ScatterDims.WF S100000x165 S1600000x1 S1600000x165 [1] [0] [0] 1
  dot_S5000x165_S165x128_S5000x128_1_0_0_1_n_n_wf : DotDims.WF S5000x165 S165x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x165.size a ≤ S100000x165.size a
  hwx0_0 : ∀ i : grid0.Coords, EltTy.bits .f32 = 32 ∨ (Rect.block (s := S100000x165) S5000x165.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x165.size a ≤ S100000x165.size a
  hwx0_1 : ∀ i : grid0.Coords, EltTy.bits .f32 = 32 ∨ (Rect.block (s := S100000x165) S5000x165.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S165x128.size a ≤ S165x128.size a
  hwx0_2 : ∀ i : grid0.Coords, EltTy.bits .f32 = 32 ∨ (Rect.block (s := S165x128) S165x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S165x128.size a ≤ S165x128.size a
  hwx0_4 : ∀ i : grid0.Coords, EltTy.bits .f32 = 32 ∨ (Rect.block (s := S165x128) S165x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x1.size a ≤ S128x1.size a
  hwx1_4 : ∀ i : grid1.Coords, EltTy.bits .f32 = 32 ∨ (Rect.block (s := S128x1) S128x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S100000x1.size a
  hwx1_5 : ∀ i : grid1.Coords, EltTy.bits .f32 = 32 ∨ (Rect.block (s := S100000x1) S5000x1.size (cc1_transform_5 i) (hinb1_5 i)).WholeWords (EltTy.packing .f32)

variable [Facts₀]

def gather_S100000x165_S1600000x1_S1600000x165_1_0_n_n_0_1_1165 : GatherDims S100000x165 S1600000x1 S1600000x165 where
  offsetDims := [1]
  collapsedSliceDims := [0]
  operandBatchingDims := []
  startIndicesBatchingDims := []
  startIndexMap := [0]
  indexVectorDim := 1
  sliceSizes := ![1, 165]
  wf := gather_S100000x165_S1600000x1_S1600000x165_1_0_n_n_0_1_1165_wf
def scatter_S100000x165_S1600000x1_S1600000x165_1_0_0_1 : ScatterDims S100000x165 S1600000x1 S1600000x165 where
  updateWindowDims := [1]
  insertedWindowDims := [0]
  scatterDimsToOperandDims := [0]
  indexVectorDim := 1
  wf := scatter_S100000x165_S1600000x1_S1600000x165_1_0_0_1_wf
def dot_S5000x165_S165x128_S5000x128_1_0_0_1_n_n : DotDims S5000x165 S165x128 S5000x128 where
  lhsContracting := [1]
  rhsContracting := [0]
  lhsNonContracting := [0]
  rhsNonContracting := [1]
  lhsBatch := []
  rhsBatch := []
  wf := dot_S5000x165_S165x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v13) S5000x165.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x165.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S165x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S165x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S128x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x165 : Shape := ⟨2, ![100000, 165]⟩
abbrev S2x1600000 : Shape := ⟨2, ![2, 1600000]⟩
abbrev S128x165 : Shape := ⟨2, ![128, 165]⟩
abbrev S128 : Shape := ⟨1, ![128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x165 : Shape := ⟨2, ![1600000, 165]⟩
abbrev S165x128 : Shape := ⟨2, ![165, 128]⟩
abbrev S100000x128 : Shape := ⟨2, ![100000, 128]⟩
abbrev S1600000x128 : Shape := ⟨2, ![1600000, 128]⟩
abbrev S128x1 : Shape := ⟨2, ![128, 1]⟩
abbrev S100000x1 : Shape := ⟨2, ![100000, 1]⟩
abbrev S1x1 : Shape := ⟨2, ![1, 1]⟩

abbrev nBuf : Space → Nat
  | .hbm => 65
  | .vmem => 0
  | .smem => 0
  | _ => 0

abbrev bufTy : (tb : Table) → Fin (tcTables nBuf tb) → BufTy
  | .hbm, ⟨0, _⟩ => ⟨S100000x165, .f32⟩
  | .hbm, ⟨1, _⟩ => ⟨S2x1600000, .i32⟩
  | .hbm, ⟨2, _⟩ => ⟨S128x165, .f32⟩
  | .hbm, ⟨3, _⟩ => ⟨S128, .f32⟩
  | .hbm, ⟨4, _⟩ => ⟨S128x165, .f32⟩
  | .hbm, ⟨5, _⟩ => ⟨S1x128, .f32⟩
  | .hbm, ⟨6, _⟩ => ⟨S1, .f32⟩
  | .hbm, ⟨7, _⟩ => ⟨S1x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x165, .f32⟩
  | .hbm, ⟨21, _⟩ => ⟨S_, .f32⟩
  | .hbm, ⟨22, _⟩ => ⟨S100000x165, .f32⟩
  | .hbm, ⟨23, _⟩ => ⟨S1600000x1, .i32⟩
  | .hbm, ⟨24, _⟩ => ⟨S100000x165, .f32⟩
  | .hbm, ⟨25, _⟩ => ⟨S165x128, .f32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S165x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S128x1, .f32⟩
  | .hbm, ⟨50, _⟩ => ⟨S100000x1, .f32⟩
  | .hbm, ⟨51, _⟩ => ⟨S1x1, .f32⟩
  | .hbm, ⟨52, _⟩ => ⟨S100000x1, .f32⟩
  | .hbm, ⟨53, _⟩ => ⟨S100000x1, .f32⟩
  | .hbm, ⟨54, _⟩ => ⟨S128x1, .f32⟩
  | .hbm, ⟨55, _⟩ => ⟨S100000x1, .f32⟩
  | .hbm, ⟨56, _⟩ => ⟨S100000x1, .f32⟩
  | .hbm, ⟨57, _⟩ => ⟨S100000x1, .f32⟩
  | .hbm, ⟨58, _⟩ => ⟨S100000x1, .f32⟩
  | .hbm, ⟨59, _⟩ => ⟨S_, .f32⟩
  | .hbm, ⟨60, _⟩ => ⟨S100000x1, .f32⟩
  | .hbm, ⟨61, _⟩ => ⟨S100000x1, .f32⟩
  | .hbm, ⟨62, _⟩ => ⟨S_, .f32⟩
  | .hbm, ⟨63, _⟩ => ⟨S100000x1, .f32⟩
  | .hbm, ⟨64, _⟩ => ⟨S100000x1, .f32⟩
  | _, _ => ⟨S100000x165, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x165 : S_.BroadcastsInDim S100000x165 (![] : Fin 0 → Fin S100000x165.rank)
  transposes_S128x165_S165x128_1_0 : S128x165.Transposes [1, 0] S165x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S1x128_S128x1_1_0 : S1x128.Transposes [1, 0] S128x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S100000x165_S1600000x1_S1600000x165_1_0_n_n_0_1_1165_wf : GatherDims.WF S100000x165 S1600000x1 S1600000x165 [1] [0] [] [0] [] 1 ![1, 165]
  scatter_S100000x165_S1600000x1_S1600000x165_1_0_0_1_wf : ScatterDims.WF S100000x165 S1600000x1 S1600000x165 [1] [0] [0] 1
  dot_S100000x165_S165x128_S100000x128_1_0_0_1_n_n_wf : DotDims.WF S100000x165 S165x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x1_S100000x1_1_0_0_1_n_n_wf : DotDims.WF S100000x128 S128x1 S100000x1 [1] [0] [0] [1] [] []

variable [Facts₀]

def gather_S100000x165_S1600000x1_S1600000x165_1_0_n_n_0_1_1165 : GatherDims S100000x165 S1600000x1 S1600000x165 where
  offsetDims := [1]
  collapsedSliceDims := [0]
  operandBatchingDims := []
  startIndicesBatchingDims := []
  startIndexMap := [0]
  indexVectorDim := 1
  sliceSizes := ![1, 165]
  wf := gather_S100000x165_S1600000x1_S1600000x165_1_0_n_n_0_1_1165_wf
def scatter_S100000x165_S1600000x1_S1600000x165_1_0_0_1 : ScatterDims S100000x165 S1600000x1 S1600000x165 where
  updateWindowDims := [1]
  insertedWindowDims := [0]
  scatterDimsToOperandDims := [0]
  indexVectorDim := 1
  wf := scatter_S100000x165_S1600000x1_S1600000x165_1_0_0_1_wf
def dot_S100000x165_S165x128_S100000x128_1_0_0_1_n_n : DotDims S100000x165 S165x128 S100000x128 where
  lhsContracting := [1]
  rhsContracting := [0]
  lhsNonContracting := [0]
  rhsNonContracting := [1]
  lhsBatch := []
  rhsBatch := []
  wf := dot_S100000x165_S165x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The kernel program's run with its final memory named.

  The program is a stretch of host operations, the first layer's kernel launched over 20 blocks of 5000 nodes,
  a second stretch of host operations, and the second layer's kernel over the same 20 blocks. The buffer contents
  at the four boundaries are a fold from the launch memory (`W1` … `W4` of the generated frame module: a stretch's
  operations applied, a kernel's arrays at what its write-backs leave). Every weakly fair execution terminates,
  and every unscoped buffer of every core then holds the last boundary's contents `W4`; in particular the result
  buffer does.
-/
import proofs.«131726_j83837761618434_1_alg».proof.Proof.Gen.KernelIdeal.Frame

set_option maxRecDepth 16384

noncomputable section

namespace Cert.GraphConv.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, and
    in every final state each core's unscoped buffers hold the last boundary's contents. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result buffer is an unscoped buffer of the TensorCore. -/
theorem result_unscoped : Proc.devRef .tc main_v31 ∈ Pipeline.ucRefs τ sig := mem_uc main_v31 (by decide)

end Cert.GraphConv.KRun

end
-- ==== Proof.Layers.lean ====
/-
  One graph-convolution layer's dense part, entry by entry, on the extended reals.

  For a node `r` and an output feature `q` a layer adds two inner products over the input features `k` — the
  aggregated neighbour row against one weight column, the node's own row against another — and a bias:
      dense a x wr wo b = (Σₖ a k · wr k + Σₖ x k · wo k) + b.
  The first layer clamps this from below at zero; the second passes it through the logistic function
  `z ↦ 1 / (1 + e^(-z))`. Addition of extended reals is commutative and associative, so the bias may just as
  well be added between the two inner products (`dense_bias_between`): no finiteness of the entries is needed.
-/
import Idealize.ShloMosaic.Lib.ValueIdx
import Idealize.ShloMosaic.PureOps.Ideal.Laws

noncomputable section

namespace Cert.GraphConv

open Idealize.ShloMosaic Idealize.ShloMosaic.ValueIdx
open scoped BigOperators

/-- Node features, 100000 nodes by 165 input features. -/
abbrev SNx165 : Shape := ⟨2, ![100000, 165]⟩
/-- Hidden features, 100000 nodes by 128. -/
abbrev SNx128 : Shape := ⟨2, ![100000, 128]⟩
/-- One score per node. -/
abbrev SNx1 : Shape := ⟨2, ![100000, 1]⟩
/-- A first-layer weight matrix, input feature by hidden feature. -/
abbrev SW1 : Shape := ⟨2, ![165, 128]⟩
/-- A second-layer weight column. -/
abbrev SW2 : Shape := ⟨2, ![128, 1]⟩
/-- The first layer's bias as a row. -/
abbrev SB1 : Shape := ⟨2, ![1, 128]⟩
/-- The second layer's bias as a one-by-one matrix. -/
abbrev SB2 : Shape := ⟨2, ![1, 1]⟩

/-- Two inner products over the features `k` and a bias. -/
def dense {K : Type} [Fintype K] (a x wr wo : K → EReal) (b : EReal) : EReal :=
  ((∑ k, a k * wr k) + ∑ k, x k * wo k) + b

/-- The bias added between the two inner products instead of after them: the same extended real. -/
theorem dense_bias_between {K : Type} [Fintype K] (a x wr wo : K → EReal) (b : EReal) :
    ((∑ k, a k * wr k) + b) + ∑ k, x k * wo k = dense a x wr wo b := add_right_comm _ _ _

/-- The first layer: entry `(r, q)` is `max (dense …) 0` of row `r` of the aggregate and of the features, columns `q` of
    the two weight matrices and entry `q` of the bias row. The zero is kept as the float word the programs print. -/
def hidden (agg x : SNx165.Idx → EReal) (wr wo : SW1.Idx → EReal) (b : SB1.Idx → EReal) : SNx128.Idx → EReal :=
  fun i => max (dense (fun k : Fin 165 => agg (ix2 (i 0) k)) (fun k : Fin 165 => x (ix2 (i 0) k))
    (fun k : Fin 165 => wr (ix2 k (i 1))) (fun k : Fin 165 => wo (ix2 k (i 1))) (b (ix2 0 (i 1)))) (Ideal.ofBits .f32 0x00000000#32)

/-- The second layer: entry `(r, 0)` is the logistic function of `dense …` of row `r` of the aggregate and of the hidden
    features, the two weight columns and the bias. -/
def score (agg h : SNx128.Idx → EReal) (wr wo : SW2.Idx → EReal) (b : SB2.Idx → EReal) : SNx1.Idx → EReal :=
  fun i => Ideal.logistic (dense (fun k : Fin 128 => agg (ix2 (i 0) k)) (fun k : Fin 128 => h (ix2 (i 0) k))
    (fun k : Fin 128 => wr (ix2 k (i 1))) (fun k : Fin 128 => wo (ix2 k (i 1))) (b (ix2 0 (i 1))))

theorem hidden_ix2 (agg x : SNx165.Idx → EReal) (wr wo : SW1.Idx → EReal) (b : SB1.Idx → EReal) (r : Fin 100000) (q : Fin 128) :
    hidden agg x wr wo b (ix2 r q) = max (dense (fun k : Fin 165 => agg (ix2 r k)) (fun k : Fin 165 => x (ix2 r k))
      (fun k : Fin 165 => wr (ix2 k q)) (fun k : Fin 165 => wo (ix2 k q)) (b (ix2 0 q))) (Ideal.ofBits .f32 0x00000000#32) := rfl

theorem score_ix2 (agg h : SNx128.Idx → EReal) (wr wo : SW2.Idx → EReal) (b : SB2.Idx → EReal) (r : Fin 100000) (q : Fin 1) :
    score agg h wr wo b (ix2 r q) = Ideal.logistic (dense (fun k : Fin 128 => agg (ix2 r k)) (fun k : Fin 128 => h (ix2 r k))
      (fun k : Fin 128 => wr (ix2 k q)) (fun k : Fin 128 => wo (ix2 k q)) (b (ix2 0 q))) := rfl

end Cert.GraphConv

end
-- ==== Proof.LibColumns.lean ====
/-
  Column vectors read at an index: a vector of `a` entries viewed as an `a × 1` column, a column
  broadcast along its rows to an `a × b` matrix, a `1 × 1` matrix broadcast to every entry of an
  `a × b` matrix; and a reduction along the rows of an `a × b` matrix read as a sum, or as a running
  maximum, over the row's entries.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, 1]` matrix broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The index of an `[a, b]` matrix over row `p` at position `k` of the reduced axis is `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

end Cert.Columns

end
-- ==== Proof.Bodies.lean ====
/-
  The two kernel bodies' stored values, read at one entry of the output block.

  A body loads a 5000-row block of the aggregate and of the features, the two (whole) weight matrices and the
  bias, rounds to bf16 (the identity on the extended reals), multiplies each block by its weight matrix into a zero
  accumulator, adds the two products and then the bias row broadcast down the block, and applies the layer's
  activation. At entry `(p, q)` of the block that is the activation of `dense` of row `p` of each block, column `q`
  of each weight matrix, and the bias at `q`.
-/
import proofs.«131726_j83837761618434_1_alg».proof.Proof.Gen.KernelIdeal.Skeleton
import proofs.«131726_j83837761618434_1_alg».proof.Proof.Layers
import proofs.«131726_j83837761618434_1_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

namespace Cert.GraphConv.Bodies

open Idealize.ShloMosaic Idealize.ShloMosaic.ValueIdx Cert.KernelIdeal Cert.GraphConv
open scoped BigOperators

/-! ## A matrix product into the zero accumulator, read at an entry

  The product's entry `(p, q)` is a sum over the contraction index; that index has one axis, so the sum is over the
  feature `k`, of the left operand at `(p, k)` times the right operand at `(k, q)`. -/

/-- The left operand's index at output index `i` and contraction position `c` has row `i 0`. -/
theorem lhs1_0 (i : S5000x128.Idx) (c : dot_S5000x165_S165x128_S5000x128_1_0_0_1_n_n.contr.Idx) :
    (dot_S5000x165_S165x128_S5000x128_1_0_0_1_n_n.lhsIdx i c 0).val = (i 0).val := by
  unfold DotDims.lhsIdx
  rw [dif_neg (show ¬(0 : Fin S5000x165.rank) ∈ dot_S5000x165_S165x128_S5000x128_1_0_0_1_n_n.lhsBatch by decide), dif_pos (show (0 : Fin S5000x165.rank) ∈ dot_S5000x165_S165x128_S5000x128_1_0_0_1_n_n.lhsNonContracting by decide)]
  rfl
/-- … and column the contraction position's one coordinate. -/
theorem lhs1_1 (i : S5000x128.Idx) (c : dot_S5000x165_S165x128_S5000x128_1_0_0_1_n_n.contr.Idx) :
    (dot_S5000x165_S165x128_S5000x128_1_0_0_1_n_n.lhsIdx i c 1).val = (c ⟨0, by decide⟩).val :=
  dot_S5000x165_S165x128_S5000x128_1_0_0_1_n_n.lhsIdx_val_of_single rfl i c
/-- The right operand's index has row the contraction position's one coordinate … -/
theorem rhs1_0 (i : S5000x128.Idx) (c : dot_S5000x165_S165x128_S5000x128_1_0_0_1_n_n.contr.Idx) :
    (dot_S5000x165_S165x128_S5000x128_1_0_0_1_n_n.rhsIdx i c 0).val = (c ⟨0, by decide⟩).val :=
  dot_S5000x165_S165x128_S5000x128_1_0_0_1_n_n.rhsIdx_val_of_single rfl i c
/-- … and column `i 1`. -/
theorem rhs1_1 (i : S5000x128.Idx) (c : dot_S5000x165_S165x128_S5000x128_1_0_0_1_n_n.contr.Idx) :
    (dot_S5000x165_S165x128_S5000x128_1_0_0_1_n_n.rhsIdx i c 1).val = (i 1).val := by
  unfold DotDims.rhsIdx
  rw [dif_neg (show ¬(1 : Fin S165x128.rank) ∈ dot_S5000x165_S165x128_S5000x128_1_0_0_1_n_n.rhsBatch by decide), dif_pos (show (1 : Fin S165x128.rank) ∈ dot_S5000x165_S165x128_S5000x128_1_0_0_1_n_n.rhsNonContracting by decide)]
  rfl

/-- A `[5000, 165] × [165, 128]` product into the zero accumulator, read at `(p, q)`: the inner product of row `p` and column `q`. -/
theorem matmul1_apply (l : FVec Ideal S5000x165 .bf16) (r : FVec Ideal S165x128 .bf16) (p : Fin 5000) (q : Fin 128) :
    matmul dot_S5000x165_S165x128_S5000x128_1_0_0_1_n_n none l r (constant (F := Ideal) S5000x128 .f32 0x00000000#32) (ix2 p q)
      = ∑ k : Fin 165, l (ix2 p k) * r (ix2 k q) := by
  refine (Ideal.matmul_constant_zero_apply dot_S5000x165_S165x128_S5000x128_1_0_0_1_n_n none l r (ix2 p q)).trans ?_
  rw [← Equiv.sum_comp (ValueIdx.contrEquiv1 dot_S5000x165_S165x128_S5000x128_1_0_0_1_n_n 165 rfl rfl).symm]
  refine Finset.sum_congr rfl fun k _ => ?_
  have hk := ValueIdx.contrEquiv1_symm_val dot_S5000x165_S165x128_S5000x128_1_0_0_1_n_n 165 rfl rfl k
  have el : dot_S5000x165_S165x128_S5000x128_1_0_0_1_n_n.lhsIdx (ix2 p q) ((ValueIdx.contrEquiv1 dot_S5000x165_S165x128_S5000x128_1_0_0_1_n_n 165 rfl rfl).symm k) = ix2 p k := funext fun a => Fin.ext (by
    match a with
    | ⟨0, _⟩ => exact lhs1_0 _ _
    | ⟨1, _⟩ => exact (lhs1_1 _ _).trans hk)
  have er : dot_S5000x165_S165x128_S5000x128_1_0_0_1_n_n.rhsIdx (ix2 p q) ((ValueIdx.contrEquiv1 dot_S5000x165_S165x128_S5000x128_1_0_0_1_n_n 165 rfl rfl).symm k) = ix2 k q := funext fun a => Fin.ext (by
    match a with
    | ⟨0, _⟩ => exact (rhs1_0 _ _).trans hk
    | ⟨1, _⟩ => exact rhs1_1 _ _)
  rw [el, er]

/-- The left operand's index at output index `i` and contraction position `c` has row `i 0`. -/
theorem lhs2_0 (i : S5000x1.Idx) (c : dot_S5000x128_S128x1_S5000x1_1_0_0_1_n_n.contr.Idx) :
    (dot_S5000x128_S128x1_S5000x1_1_0_0_1_n_n.lhsIdx i c 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
/-- … and column the contraction position's one coordinate. -/
theorem lhs2_1 (i : S5000x1.Idx) (c : dot_S5000x128_S128x1_S5000x1_1_0_0_1_n_n.contr.Idx) :
    (dot_S5000x128_S128x1_S5000x1_1_0_0_1_n_n.lhsIdx i c 1).val = (c ⟨0, by decide⟩).val :=
  dot_S5000x128_S128x1_S5000x1_1_0_0_1_n_n.lhsIdx_val_of_single rfl i c
/-- The right operand's index has row the contraction position's one coordinate … -/
theorem rhs2_0 (i : S5000x1.Idx) (c : dot_S5000x128_S128x1_S5000x1_1_0_0_1_n_n.contr.Idx) :
    (dot_S5000x128_S128x1_S5000x1_1_0_0_1_n_n.rhsIdx i c 0).val = (c ⟨0, by decide⟩).val :=
  dot_S5000x128_S128x1_S5000x1_1_0_0_1_n_n.rhsIdx_val_of_single rfl i c
/-- … and column `i 1`. -/
theorem rhs2_1 (i : S5000x1.Idx) (c : dot_S5000x128_S128x1_S5000x1_1_0_0_1_n_n.contr.Idx) :
    (dot_S5000x128_S128x1_S5000x1_1_0_0_1_n_n.rhsIdx i c 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- A `[5000, 128] × [128, 1]` product into the zero accumulator, read at `(p, q)`: the inner product of row `p` and column `q`. -/
theorem matmul2_apply (l : FVec Ideal S5000x128 .bf16) (r : FVec Ideal S128x1 .bf16) (p : Fin 5000) (q : Fin 1) :
    matmul dot_S5000x128_S128x1_S5000x1_1_0_0_1_n_n none l r (constant (F := Ideal) S5000x1 .f32 0x00000000#32) (ix2 p q)
      = ∑ k : Fin 128, l (ix2 p k) * r (ix2 k q) := by
  refine (Ideal.matmul_constant_zero_apply dot_S5000x128_S128x1_S5000x1_1_0_0_1_n_n none l r (ix2 p q)).trans ?_
  rw [← Equiv.sum_comp (ValueIdx.contrEquiv1 dot_S5000x128_S128x1_S5000x1_1_0_0_1_n_n 128 rfl rfl).symm]
  refine Finset.sum_congr rfl fun k _ => ?_
  have hk := ValueIdx.contrEquiv1_symm_val dot_S5000x128_S128x1_S5000x1_1_0_0_1_n_n 128 rfl rfl k
  have el : dot_S5000x128_S128x1_S5000x1_1_0_0_1_n_n.lhsIdx (ix2 p q) ((ValueIdx.contrEquiv1 dot_S5000x128_S128x1_S5000x1_1_0_0_1_n_n 128 rfl rfl).symm k) = ix2 p k := funext fun a => Fin.ext (by
    match a with
    | ⟨0, _⟩ => exact lhs2_0 _ _
    | ⟨1, _⟩ => exact (lhs2_1 _ _).trans hk)
  have er : dot_S5000x128_S128x1_S5000x1_1_0_0_1_n_n.rhsIdx (ix2 p q) ((ValueIdx.contrEquiv1 dot_S5000x128_S128x1_S5000x1_1_0_0_1_n_n 128 rfl rfl).symm k) = ix2 k q := funext fun a => Fin.ext (by
    match a with
    | ⟨0, _⟩ => exact (rhs2_0 _ _).trans hk
    | ⟨1, _⟩ => exact rhs2_1 _ _)
  rw [el, er]

/-! ## The two bodies -/

/-- The first body's stored value at `(p, q)`. -/
theorem body1_apply (v0 v3 : Vec Ideal S5000x165 .f32) (v5 v8 : Vec Ideal S165x128 .f32) (v14 : Vec Ideal S1x128 .f32)
    (p : Fin 5000) (q : Fin 128) :
    Cert.KernelIdeal.Gen.k0_pay1 (F := Ideal) v0 v3 v5 v8 v14 (ix2 p q)
      = max (dense (fun k : Fin 165 => v0 (ix2 p k)) (fun k : Fin 165 => v3 (ix2 p k))
          (fun k : Fin 165 => v5 (ix2 k q)) (fun k : Fin 165 => v8 (ix2 k q)) (v14 (ix2 0 q))) (Ideal.ofBits .f32 0x00000000#32) := by
  unfold Cert.KernelIdeal.Gen.k0_pay1
  simp only [shapeCast_self]
  rw [maximumf_apply, addf_apply, addf_apply, broadcast_apply, matmul1_apply, matmul1_apply, broadcastTo_1b_ab_apply]
  rfl

/-- The second body's stored value at `(p, q)`. -/
theorem body2_apply (v0 v3 : Vec Ideal S5000x128 .f32) (v6 v9 : Vec Ideal S128x1 .f32) (v15 : Vec Ideal S1x1 .f32)
    (p : Fin 5000) (q : Fin 1) :
    Cert.KernelIdeal.Gen.k1_pay1 (F := Ideal) v0 v3 v6 v9 v15 (ix2 p q)
      = Ideal.logistic (dense (fun k : Fin 128 => v0 (ix2 p k)) (fun k : Fin 128 => v3 (ix2 p k))
          (fun k : Fin 128 => v6 (ix2 k q)) (fun k : Fin 128 => v9 (ix2 k q)) (v15 (ix2 0 q))) := by
  obtain rfl : q = 0 := Subsingleton.elim q 0
  unfold Cert.KernelIdeal.Gen.k1_pay1
  simp only [shapeCast_self]
  refine congrArg Ideal.logistic ?_
  rw [addf_apply, addf_apply, matmul2_apply, matmul2_apply, Cert.Columns.broadcastTo_11_ab_apply]
  rfl

end Cert.GraphConv.Bodies

end
-- ==== Proof.FirstKernel.lean ====
/-
  The first layer's kernel: what its output array holds when the 20 grid points have run.

  Grid point `t` works on rows `5000·t … 5000·t + 4999`: it is handed that block of rows of the aggregate and of the
  node features, and all of the two weight matrices and of the bias row, and writes back the same block of rows of
  the output. Entry `(p, q)` of what it writes is `max (dense …) 0` of row `p` of each input block, so it is entry
  `(5000·t + p, q)` of `hidden` of the whole arrays. The 20 blocks tile the 100000 rows (row `r` lies in block
  `r / 5000`), so the output array ends holding `hidden` of the arrays the kernel was entered with.
-/
import proofs.«131726_j83837761618434_1_alg».proof.Proof.Gen.KernelIdeal.Frame
import proofs.«131726_j83837761618434_1_alg».proof.Proof.Bodies
import proofs.«131726_j83837761618434_1_alg».proof.Proof.Layers
import Idealize.ShloMosaic.Lib.Pipeline.Value

set_option maxRecDepth 16384

noncomputable section

namespace Cert.GraphConv.First

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphConv

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the three row-blocked windows sit at block `t` of the rows, the weights and
    the bias at their one block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` is row `5000·t + p` of the array. -/
def row (t : Fin cfg0.N) (p : Fin 5000) : Fin 100000 :=
  ⟨t.val * 5000 + p.val, by have h : t.val < grid0.N := t.isLt; have hN : grid0.N = 20 := N_0; have hp := p.isLt; omega⟩

/-- The aggregate's block at point `t`, read at `(p, k)`. -/
theorem read_agg (c : Dev nD) (t : Fin cfg0.N) (p : Fin 5000) (k : Fin 165) :
    iblk0 V c 0 t (ix2 p k) = V c main_v13 (ix2 (row t p) k) := by
  obtain ⟨e0, e1, -⟩ := index_facts t
  show V c main_v13 (((cfg0.win 0).blk t).view.emb (ix2 p k)) = V c main_v13 (ix2 (row t p) k)
  refine congrArg (V c main_v13) (funext fun a => Fin.ext ?_)
  match a with
  | ⟨0, _⟩ => show win0_0.index t (0 : Fin 2) * 5000 + 1 * p.val = t.val * 5000 + p.val; omega
  | ⟨1, _⟩ => show win0_0.index t (1 : Fin 2) * 165 + 1 * k.val = k.val; omega

/-- The features' block at point `t`, read at `(p, k)`. -/
theorem read_feat (c : Dev nD) (t : Fin cfg0.N) (p : Fin 5000) (k : Fin 165) :
    iblk0 V c 1 t (ix2 p k) = V c main_arg0 (ix2 (row t p) k) := by
  obtain ⟨-, -, e0, e1, -⟩ := index_facts t
  show V c main_arg0 (((cfg0.win 1).blk t).view.emb (ix2 p k)) = V c main_arg0 (ix2 (row t p) k)
  refine congrArg (V c main_arg0) (funext fun a => Fin.ext ?_)
  match a with
  | ⟨0, _⟩ => show win0_1.index t (0 : Fin 2) * 5000 + 1 * p.val = t.val * 5000 + p.val; omega
  | ⟨1, _⟩ => show win0_1.index t (1 : Fin 2) * 165 + 1 * k.val = k.val; omega

/-- The first weight matrix is handed over whole. -/
theorem read_wrel (c : Dev nD) (t : Fin cfg0.N) (k : Fin 165) (q : Fin 128) :
    iblk0 V c 2 t (ix2 k q) = V c main_v14 (ix2 k q) := by
  obtain ⟨-, -, -, -, e0, e1, -⟩ := index_facts t
  show V c main_v14 (((cfg0.win 2).blk t).view.emb (ix2 k q)) = V c main_v14 (ix2 k q)
  refine congrArg (V c main_v14) (funext fun a => Fin.ext ?_)
  match a with
  | ⟨0, _⟩ => show win0_2.index t (0 : Fin 2) * 165 + 1 * k.val = k.val; omega
  | ⟨1, _⟩ => show win0_2.index t (1 : Fin 2) * 128 + 1 * q.val = q.val; omega

/-- The bias row is handed over whole. -/
theorem read_bias (c : Dev nD) (t : Fin cfg0.N) (q : Fin 128) :
    iblk0 V c 3 t (ix2 (0 : Fin 1) q) = V c main_v16 (ix2 (0 : Fin 1) q) := by
  obtain ⟨-, -, -, -, -, -, e0, e1, -⟩ := index_facts t
  show V c main_v16 (((cfg0.win 3).blk t).view.emb (ix2 (0 : Fin 1) q)) = V c main_v16 (ix2 (0 : Fin 1) q)
  refine congrArg (V c main_v16) (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-- The second weight matrix is handed over whole. -/
theorem read_wroot (c : Dev nD) (t : Fin cfg0.N) (k : Fin 165) (q : Fin 128) :
    iblk0 V c 4 t (ix2 k q) = V c main_v15 (ix2 k q) := by
  obtain ⟨-, -, -, -, -, -, -, -, e0, e1, -⟩ := index_facts t
  show V c main_v15 (((cfg0.win 4).blk t).view.emb (ix2 k q)) = V c main_v15 (ix2 k q)
  refine congrArg (V c main_v15) (funext fun a => Fin.ext ?_)
  match a with
  | ⟨0, _⟩ => show win0_4.index t (0 : Fin 2) * 165 + 1 * k.val = k.val; omega
  | ⟨1, _⟩ => show win0_4.index t (1 : Fin 2) * 128 + 1 * q.val = q.val; omega

/-- Entry `(p, q)` of the output's block `t` is entry `(5000·t + p, q)` of the output array. -/
theorem out_emb (t : Fin cfg0.N) (p : Fin 5000) (q : Fin 128) :
    ((cfg0.win 5).blk t).view.emb (ix2 p q) = ix2 (row t p) q := by
  obtain ⟨-, -, -, -, -, -, -, -, -, -, e0, e1⟩ := index_facts t
  refine funext fun a => Fin.ext ?_
  match a with
  | ⟨0, _⟩ => show win0_5.index t (0 : Fin 2) * 5000 + 1 * p.val = t.val * 5000 + p.val; omega
  | ⟨1, _⟩ => show win0_5.index t (1 : Fin 2) * 128 + 1 * q.val = q.val; omega

/-- The whole output array the kernel works towards: the first layer of the arrays it was entered with. -/
abbrev target (c : Dev nD) : SNx128.Idx → EReal :=
  hidden (V c main_v13) (V c main_arg0) (V c main_v14) (V c main_v15) (V c main_v16)

/-- What point `t` writes back is block `t` of the target. -/
theorem flushed_eq (c : Dev nD) (t : Fin cfg0.N) :
    (dat0 V c).flushed 5 t = ((cfg0.win 5).blk t).view.read (Elt Ideal) (target V c) := by
  show (cfg0.win 5).cut (grid0.coords t) ((dat0 V c).after 5 t) = _
  rw [after0_5]
  unfold out0_5
  rw [View.canon_unit_zero origin]
  simp only [View.ld_unit_zero (S := S5000x165) origin, View.ld_unit_zero (S := S165x128) origin, View.ld_unit_zero (S := S1x128) origin]
  funext j
  obtain ⟨p, q, rfl⟩ : ∃ (p : Fin 5000) (q : Fin 128), j = ix2 p q := ⟨j 0, j 1, eq_ix2 j⟩
  refine (Bodies.body1_apply (iblk0 V c 0 t) (iblk0 V c 1 t) (iblk0 V c 2 t) (iblk0 V c 4 t) (iblk0 V c 3 t) p q).trans ?_
  show _ = target V c (((cfg0.win 5).blk t).view.emb (ix2 p q))
  rw [out_emb t p q]
  simp only [read_agg V c t p, read_feat V c t p, read_wrel V c t, read_wroot V c t, read_bias V c t q]
  rfl

/-- An index of the output array is in point `t`'s block iff each coordinate is in the block's range on its axis. -/
theorem mem_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v17).slice (win0_5.rect t)).set ↔ _
  rw [View.set_slice_whole, Rect.mem_set_unit]
  exact Iff.rfl

/-- Every index of the output array lies in the block of the point `row / 5000`, and every point writes back. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 20 := N_0
  let t : Fin cfg0.N := ⟨(i 0).val / 5000, by show (i 0).val / 5000 < grid0.N; omega⟩
  obtain ⟨-, -, -, -, -, -, -, -, -, -, e0, e1⟩ := index_facts t
  have ht : t.val = (i 0).val / 5000 := rfl
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the last point: the first layer of the arrays the kernel was entered with. -/
theorem final (c : Dev nD) : (dat0 V c).arrAt 5 cfg0.N = target V c :=
  (dat0 V c).arrAt_eq_of_cover 5 (target V c) (fun t _ => flushed_eq V c t) covered

end Cert.GraphConv.First

end
-- ==== Proof.SecondKernel.lean ====
/-
  The second layer's kernel: what its output array holds when the 20 grid points have run.

  Grid point `t` is handed rows `5000·t … 5000·t + 4999` of the second aggregate and of the hidden features, the two
  weight columns and the one-by-one bias, and writes back the same rows of the one-column output. Entry `(p, 0)` of
  what it writes is the logistic function of `dense …` of row `p` of each input block, so it is entry
  `(5000·t + p, 0)` of `score` of the whole arrays. The 20 blocks tile the 100000 rows, so the output array ends
  holding `score` of the arrays the kernel was entered with.
-/
import proofs.«131726_j83837761618434_1_alg».proof.Proof.Gen.KernelIdeal.Frame
import proofs.«131726_j83837761618434_1_alg».proof.Proof.Bodies
import proofs.«131726_j83837761618434_1_alg».proof.Proof.Layers
import Idealize.ShloMosaic.Lib.Pipeline.Value

set_option maxRecDepth 16384

noncomputable section

namespace Cert.GraphConv.Second

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphConv

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the three row-blocked windows sit at block `t` of the rows, the weights and
    the bias at their one block. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of block `t` is row `5000·t + p` of the array. -/
def row (t : Fin cfg1.N) (p : Fin 5000) : Fin 100000 :=
  ⟨t.val * 5000 + p.val, by have h : t.val < grid1.N := t.isLt; have hN : grid1.N = 20 := N_1; have hp := p.isLt; omega⟩

/-- The aggregate's block at point `t`, read at `(p, k)`. -/
theorem read_agg (c : Dev nD) (t : Fin cfg1.N) (p : Fin 5000) (k : Fin 128) :
    iblk1 V c 0 t (ix2 p k) = V c main_v27 (ix2 (row t p) k) := by
  obtain ⟨e0, e1, -⟩ := index_facts t
  show V c main_v27 (((cfg1.win 0).blk t).view.emb (ix2 p k)) = V c main_v27 (ix2 (row t p) k)
  refine congrArg (V c main_v27) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- The hidden features' block at point `t`, read at `(p, k)`. -/
theorem read_feat (c : Dev nD) (t : Fin cfg1.N) (p : Fin 5000) (k : Fin 128) :
    iblk1 V c 1 t (ix2 p k) = V c main_v17 (ix2 (row t p) k) := by
  obtain ⟨-, -, e0, e1, -⟩ := index_facts t
  show V c main_v17 (((cfg1.win 1).blk t).view.emb (ix2 p k)) = V c main_v17 (ix2 (row t p) k)
  refine congrArg (V c main_v17) (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

/-- The first weight column is handed over whole. -/
theorem read_wrel (c : Dev nD) (t : Fin cfg1.N) (k : Fin 128) (q : Fin 1) :
    iblk1 V c 2 t (ix2 k q) = V c main_v28 (ix2 k q) := by
  obtain ⟨-, -, -, -, e0, e1, -⟩ := index_facts t
  show V c main_v28 (((cfg1.win 2).blk t).view.emb (ix2 k q)) = V c main_v28 (ix2 k q)
  refine congrArg (V c main_v28) (funext fun a => Fin.ext ?_)
  match a with
  | ⟨0, _⟩ => show win1_2.index t (0 : Fin 2) * 128 + 1 * k.val = k.val; omega
  | ⟨1, _⟩ => show win1_2.index t (1 : Fin 2) * 1 + 1 * q.val = q.val; omega

/-- The bias is handed over whole. -/
theorem read_bias (c : Dev nD) (t : Fin cfg1.N) (q : Fin 1) :
    iblk1 V c 3 t (ix2 (0 : Fin 1) q) = V c main_v30 (ix2 (0 : Fin 1) q) := by
  obtain ⟨-, -, -, -, -, -, e0, e1, -⟩ := index_facts t
  show V c main_v30 (((cfg1.win 3).blk t).view.emb (ix2 (0 : Fin 1) q)) = V c main_v30 (ix2 (0 : Fin 1) q)
  refine congrArg (V c main_v30) (funext fun a => Fin.ext ?_)
  match a with
  | ⟨0, _⟩ => show win1_3.index t (0 : Fin 2) * 1 + 1 * 0 = 0; omega
  | ⟨1, _⟩ => show win1_3.index t (1 : Fin 2) * 1 + 1 * q.val = q.val; omega

/-- The second weight column is handed over whole. -/
theorem read_wroot (c : Dev nD) (t : Fin cfg1.N) (k : Fin 128) (q : Fin 1) :
    iblk1 V c 4 t (ix2 k q) = V c main_v29 (ix2 k q) := by
  obtain ⟨-, -, -, -, -, -, -, -, e0, e1, -⟩ := index_facts t
  show V c main_v29 (((cfg1.win 4).blk t).view.emb (ix2 k q)) = V c main_v29 (ix2 k q)
  refine congrArg (V c main_v29) (funext fun a => Fin.ext ?_)
  match a with
  | ⟨0, _⟩ => show win1_4.index t (0 : Fin 2) * 128 + 1 * k.val = k.val; omega
  | ⟨1, _⟩ => show win1_4.index t (1 : Fin 2) * 1 + 1 * q.val = q.val; omega

/-- Entry `(p, q)` of the output's block `t` is entry `(5000·t + p, q)` of the output array. -/
theorem out_emb (t : Fin cfg1.N) (p : Fin 5000) (q : Fin 1) :
    ((cfg1.win 5).blk t).view.emb (ix2 p q) = ix2 (row t p) q := by
  obtain ⟨-, -, -, -, -, -, -, -, -, -, e0, e1⟩ := index_facts t
  refine funext fun a => Fin.ext ?_
  match a with
  | ⟨0, _⟩ => show win1_5.index t (0 : Fin 2) * 5000 + 1 * p.val = t.val * 5000 + p.val; omega
  | ⟨1, _⟩ => show win1_5.index t (1 : Fin 2) * 1 + 1 * q.val = q.val; omega

/-- The whole output array the kernel works towards: the second layer of the arrays it was entered with. -/
abbrev target (c : Dev nD) : SNx1.Idx → EReal :=
  score (V c main_v27) (V c main_v17) (V c main_v28) (V c main_v29) (V c main_v30)

/-- What point `t` writes back is block `t` of the target. -/
theorem flushed_eq (c : Dev nD) (t : Fin cfg1.N) :
    (dat1 V c).flushed 5 t = ((cfg1.win 5).blk t).view.read (Elt Ideal) (target V c) := by
  show (cfg1.win 5).cut (grid1.coords t) ((dat1 V c).after 5 t) = _
  rw [after1_5]
  unfold out1_5
  rw [View.canon_unit_zero origin]
  simp only [View.ld_unit_zero (S := S5000x128) origin, View.ld_unit_zero (S := S128x1) origin, View.ld_unit_zero (S := S1x1) origin]
  funext j
  obtain ⟨p, q, rfl⟩ : ∃ (p : Fin 5000) (q : Fin 1), j = ix2 p q := ⟨j 0, j 1, eq_ix2 j⟩
  refine (Bodies.body2_apply (iblk1 V c 0 t) (iblk1 V c 1 t) (iblk1 V c 2 t) (iblk1 V c 4 t) (iblk1 V c 3 t) p q).trans ?_
  show _ = target V c (((cfg1.win 5).blk t).view.emb (ix2 p q))
  rw [out_emb t p q]
  simp only [read_agg V c t p, read_feat V c t p, read_wrel V c t, read_wroot V c t, read_bias V c t q]
  rfl

/-- An index of the output array is in point `t`'s block iff each coordinate is in the block's range on its axis. -/
theorem mem_block (t : Fin cfg1.N) (i : S100000x1.Idx) :
    i ∈ ((cfg1.win 5).blk t).view.set ↔ ∀ a : Fin 2, win1_5.index t a * S5000x1.size a ≤ (i a).val ∧ (i a).val < win1_5.index t a * S5000x1.size a + S5000x1.size a := by
  show i ∈ ((View.whole main_v31).slice (win1_5.rect t)).set ↔ _
  rw [View.set_slice_whole, Rect.mem_set_unit]
  exact Iff.rfl

/-- Every index of the output array lies in the block of the point `row / 5000`, and every point writes back. -/
theorem covered (i : S100000x1.Idx) :
    ∃ t : Fin cfg1.N, (cfg1.win 5).flush t = true ∧ i ∈ ((cfg1.win 5).blk t).view.set := by
  have hi0 : (i 0).val < 100000 := (i 0).isLt
  have hi1 : (i 1).val < 1 := (i 1).isLt
  have hN : grid1.N = 20 := N_1
  let t : Fin cfg1.N := ⟨(i 0).val / 5000, by show (i 0).val / 5000 < grid1.N; omega⟩
  obtain ⟨-, -, -, -, -, -, -, -, -, -, e0, e1⟩ := index_facts t
  have ht : t.val = (i 0).val / 5000 := rfl
  refine ⟨t, flush1_5 t, ?_⟩
  rw [mem_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 1 ≤ (i 1).val ∧ (i 1).val < win1_5.index t (1 : Fin 2) * 1 + 1; omega

/-- The output array after the last point: the second layer of the arrays the kernel was entered with. -/
theorem final (c : Dev nD) : (dat1 V c).arrAt 5 cfg1.N = target V c :=
  (dat1 V c).arrAt_eq_of_cover 5 (target V c) (fun t _ => flushed_eq V c t) covered

end Cert.GraphConv.Second

end
-- ==== Proof.Reference.lean ====
/-
  The reference program's result as the two layers.

  The reference aggregates neighbour rows by a gather and a scatter-add (kept here as one function of the features
  and the edge list, never opened), forms each layer's two matrix products and adds the bias BETWEEN them, clamps
  the first layer at zero and spells the second layer's logistic function as `1 / (1 + e^(-z))`. Entry by entry that
  is `hidden` and `score`: the matrix products are the inner products of `dense`, the bias moves past the second
  product by commutativity and associativity of addition, and `1 / (1 + e^(-z))` is the logistic function's definition.
-/
import proofs.«131726_j83837761618434_1_alg».proof.Proof.Gen.ReferenceIdeal.Read
import proofs.«131726_j83837761618434_1_alg».proof.Proof.Layers

noncomputable section

namespace Cert.GraphConv.Ref

open Idealize.ShloMosaic Idealize.ShloMosaic.ValueIdx Cert.ReferenceIdeal Cert.ReferenceIdeal.Read Cert.GraphConv
open scoped BigOperators

/-- The second aggregation as a function of the hidden features and the edge list: rows gathered at the edges'
    sources, added into a zero array at the edges' targets. -/
def agg2 (h : (⟨S100000x128, .f32⟩ : BufTy).Contents (Elt Ideal)) (x1 : (⟨S2x1600000, .i32⟩ : BufTy).Contents (Elt Ideal)) :
    (⟨S100000x128, .f32⟩ : BufTy).Contents (Elt Ideal) :=
  Host.scatterAdd (F := Ideal) (φ := .f32) scatter_S100000x128_S1600000x1_S1600000x128_1_0_0_1 (val_main_v30 (F := Ideal)) (val_main_v31 (F := Ideal) x1)
    (Host.gather gather_S100000x128_S1600000x1_S1600000x128_1_0_n_n_0_1_1128 h (val_main_v28 (F := Ideal) x1))

/-- The float word `0x3F800000` is the number one. -/
theorem ofBits_one : Ideal.ofBits .f32 0x3F800000#32 = 1 := by
  simp [Ideal.ofBits, Ideal.ieee, -EReal.coe_mul]; norm_num

/-- The reference's hidden features are the first layer of its first aggregate. -/
theorem hidden_eq (x0 : (⟨S100000x165, .f32⟩ : BufTy).Contents (Elt Ideal)) (x1 : (⟨S2x1600000, .i32⟩ : BufTy).Contents (Elt Ideal))
    (x2 : (⟨S128x165, .f32⟩ : BufTy).Contents (Elt Ideal)) (x3 : (⟨S128, .f32⟩ : BufTy).Contents (Elt Ideal))
    (x4 : (⟨S128x165, .f32⟩ : BufTy).Contents (Elt Ideal)) :
    val_main_v22 (F := Ideal) x0 x1 x2 x3 x4
      = hidden (val_main_v13 (F := Ideal) x0 x1) x0 (val_main_v14 (F := Ideal) x2) (val_main_v19 (F := Ideal) x4) (val_main_v16 (F := Ideal) x3) := by
  funext i
  obtain ⟨r, q, rfl⟩ : ∃ (r : Fin 100000) (q : Fin 128), i = ix2 r q := ⟨i 0, i 1, eq_ix2 i⟩
  rw [hidden_ix2]
  have e1 : ∀ k : Fin 165, lidx_main_v15 (ix2 r q) k = ix2 r k := fun k =>
    funext fun a => Fin.ext (by match a with | ⟨0, _⟩ => rfl | ⟨1, _⟩ => rfl)
  have e2 : ∀ k : Fin 165, ridx_main_v15 (ix2 r q) k = ix2 k q := fun k =>
    funext fun a => Fin.ext (by match a with | ⟨0, _⟩ => rfl | ⟨1, _⟩ => rfl)
  have e3 : ∀ k : Fin 165, lidx_main_v20 (ix2 r q) k = ix2 r k := fun k =>
    funext fun a => Fin.ext (by match a with | ⟨0, _⟩ => rfl | ⟨1, _⟩ => rfl)
  have e4 : ∀ k : Fin 165, ridx_main_v20 (ix2 r q) k = ix2 k q := fun k =>
    funext fun a => Fin.ext (by match a with | ⟨0, _⟩ => rfl | ⟨1, _⟩ => rfl)
  have e5 : idx_main_v17 (ix2 r q) = ix2 0 q :=
    funext fun a => Fin.ext (by match a with | ⟨0, _⟩ => rfl | ⟨1, _⟩ => rfl)
  rw [val_main_v22_apply, val_main_v21_apply, val_main_v18_apply, val_main_v15_apply, val_main_v20_apply,
    val_main_v17_apply, val_main_call0_v0_apply, val_main_call0_cst_apply]
  simp only [e1, e2, e3, e4, e5, Ideal.addf_def, Ideal.maximumf_def, Ideal.ofBits_def]
  exact congrArg (fun z => max z (Ideal.ofBits .f32 0x00000000#32)) (dense_bias_between _ _ _ _ _)

/-- The reference's result is the second layer of the second aggregate of its hidden features. -/
theorem result_eq (x0 : (⟨S100000x165, .f32⟩ : BufTy).Contents (Elt Ideal)) (x1 : (⟨S2x1600000, .i32⟩ : BufTy).Contents (Elt Ideal))
    (x2 : (⟨S128x165, .f32⟩ : BufTy).Contents (Elt Ideal)) (x3 : (⟨S128, .f32⟩ : BufTy).Contents (Elt Ideal))
    (x4 : (⟨S128x165, .f32⟩ : BufTy).Contents (Elt Ideal)) (x5 : (⟨S1x128, .f32⟩ : BufTy).Contents (Elt Ideal))
    (x6 : (⟨S1, .f32⟩ : BufTy).Contents (Elt Ideal)) (x7 : (⟨S1x128, .f32⟩ : BufTy).Contents (Elt Ideal)) :
    val_main_v46 (F := Ideal) x0 x1 x2 x3 x4 x5 x6 x7
      = score (agg2 (val_main_v22 (F := Ideal) x0 x1 x2 x3 x4) x1) (val_main_v22 (F := Ideal) x0 x1 x2 x3 x4)
          (val_main_v33 (F := Ideal) x5) (val_main_v38 (F := Ideal) x7) (val_main_v35 (F := Ideal) x6) := by
  have h32 : val_main_v32 (F := Ideal) x0 x1 x2 x3 x4 = agg2 (val_main_v22 (F := Ideal) x0 x1 x2 x3 x4) x1 := rfl
  funext i
  obtain ⟨r, q, rfl⟩ : ∃ (r : Fin 100000) (q : Fin 1), i = ix2 r q := ⟨i 0, i 1, eq_ix2 i⟩
  obtain rfl : q = 0 := Subsingleton.elim _ _
  rw [score_ix2]
  have e1 : ∀ k : Fin 128, lidx_main_v34 (ix2 r (0 : Fin 1)) k = ix2 r k := fun k =>
    funext fun a => Fin.ext (by match a with | ⟨0, _⟩ => rfl | ⟨1, _⟩ => rfl)
  have e2 : ∀ k : Fin 128, ridx_main_v34 (ix2 r (0 : Fin 1)) k = ix2 k (0 : Fin 1) := fun k =>
    funext fun a => Fin.ext (by match a with | ⟨0, _⟩ => rfl | ⟨1, _⟩ => rfl)
  have e3 : ∀ k : Fin 128, lidx_main_v39 (ix2 r (0 : Fin 1)) k = ix2 r k := fun k =>
    funext fun a => Fin.ext (by match a with | ⟨0, _⟩ => rfl | ⟨1, _⟩ => rfl)
  have e4 : ∀ k : Fin 128, ridx_main_v39 (ix2 r (0 : Fin 1)) k = ix2 k (0 : Fin 1) := fun k =>
    funext fun a => Fin.ext (by match a with | ⟨0, _⟩ => rfl | ⟨1, _⟩ => rfl)
  have e5 : idx_main_v36 (ix2 r (0 : Fin 1)) = ix2 (0 : Fin 1) (0 : Fin 1) :=
    funext fun a => Fin.ext (by match a with | ⟨0, _⟩ => rfl | ⟨1, _⟩ => rfl)
  rw [val_main_v46_apply, val_main_v45_apply, val_main_cst_5_apply, val_main_v44_apply, val_main_v43_apply,
    val_main_cst_4_apply, val_main_v42_apply, val_main_v41_apply, val_main_v40_apply, val_main_v37_apply,
    val_main_v34_apply, val_main_v39_apply, val_main_v36_apply, h32]
  generalize val_main_v22 (F := Ideal) x0 x1 x2 x3 x4 = H
  simp only [e1, e2, e3, e4, e5, Ideal.hostDivf_def, Ideal.addf_def, Ideal.hostUnary_exp_def, Ideal.hostNegf_def,
    Ideal.negf_def, Ideal.ofBits_def, ofBits_one]
  exact congrArg Ideal.logistic (dense_bias_between _ _ _ _ _)

end Cert.GraphConv.Ref

end
-- ==== Proof.Bridge.lean ====
/-
  The kernel program's result is the reference's.

  Walking the kernel program's boundaries: the first stretch of host operations leaves, for the first kernel, the
  first aggregate (the same gather and scatter-add of the features along the edge list that the reference performs),
  the features, the two transposed weight matrices and the bias as a row; the first kernel leaves `hidden` of these,
  which is the reference's hidden-feature array; the second stretch leaves the second aggregate of that array, the
  transposed weight columns and the bias as a one-by-one matrix; the second kernel leaves `score` of these, which is
  the reference's result. The two programs shape the bias differently (a reshape against a broadcast along a new
  unit axis); entry by entry both read the bias vector.
-/
import proofs.«131726_j83837761618434_1_alg».proof.Proof.Gen.KernelIdeal.Frame
import proofs.«131726_j83837761618434_1_alg».proof.Proof.Gen.ReferenceIdeal.Read
import proofs.«131726_j83837761618434_1_alg».proof.Proof.FirstKernel
import proofs.«131726_j83837761618434_1_alg».proof.Proof.SecondKernel
import proofs.«131726_j83837761618434_1_alg».proof.Proof.Reference
import Idealize.ShloMosaic.Lib.StableHlo.Run
import Idealize.ShloMosaic.Lib.ValueLayout

set_option maxRecDepth 16384

noncomputable section

namespace Cert.GraphConv.Bridge

open Idealize.ShloMosaic Idealize.ShloMosaic.TcCoe Idealize.ShloMosaic.ValueIdx Idealize.SL.Sem
open Cert.KernelIdeal Cert.KernelIdeal.Gen Cert.GraphConv

variable (m : (ℓ : Loc nD τ sig) → Buf (Elt Ideal) ℓ) (ρ : Dev nD → PrngReg)

/-! ## Entering the first kernel -/

theorem entry1_agg (c : Dev nD) :
    V1 m ρ c main_v13 = Cert.ReferenceIdeal.Read.val_main_v13 (F := Ideal) (m ((c : Thread nD τ).loc main_arg0)) (m ((c : Thread nD τ).loc main_arg1)) := by
  show StableHlo.after hostOps0 (W0 m ρ c) (Proc.devRef .tc main_v13) = _
  after_results
  rfl

theorem entry1_feat (c : Dev nD) : V1 m ρ c main_arg0 = m ((c : Thread nD τ).loc main_arg0) := by
  show StableHlo.after hostOps0 (W0 m ρ c) (Proc.devRef .tc main_arg0) = _
  after_results

theorem entry1_wrel (c : Dev nD) :
    V1 m ρ c main_v14 = Cert.ReferenceIdeal.Read.val_main_v14 (F := Ideal) (m ((c : Thread nD τ).loc main_arg2)) := by
  show StableHlo.after hostOps0 (W0 m ρ c) (Proc.devRef .tc main_v14) = _
  after_results
  rfl

theorem entry1_wroot (c : Dev nD) :
    V1 m ρ c main_v15 = Cert.ReferenceIdeal.Read.val_main_v19 (F := Ideal) (m ((c : Thread nD τ).loc main_arg4)) := by
  show StableHlo.after hostOps0 (W0 m ρ c) (Proc.devRef .tc main_v15) = _
  after_results
  rfl

theorem entry1_bias_cast (c : Dev nD) :
    V1 m ρ c main_v16 = shapeCast S1x128 (m ((c : Thread nD τ).loc main_arg3)) shapeCasts_S128_S1x128 := by
  show StableHlo.after hostOps0 (W0 m ρ c) (Proc.devRef .tc main_v16) = _
  after_results
  rfl

/-- The bias vector reshaped to a row and the bias vector broadcast along a new unit axis are the same row. -/
theorem bias_row (b : (⟨S128, .f32⟩ : BufTy).Contents (Elt Ideal)) :
    shapeCast S1x128 b shapeCasts_S128_S1x128 = Cert.ReferenceIdeal.Read.val_main_v16 (F := Ideal) b := by
  funext j
  obtain ⟨u, q, rfl⟩ : ∃ (u : Fin 1) (q : Fin 128), j = ix2 u q := ⟨j 0, j 1, eq_ix2 j⟩
  rw [Cert.ReferenceIdeal.Read.val_main_v16_apply]
  refine (shapeCast_a_1a_apply b shapeCasts_S128_S1x128 u q).trans ?_
  refine congrArg b (funext fun a => Fin.ext ?_)
  match a with
  | ⟨0, _⟩ => rfl

/-- The one-entry bias reshaped to a one-by-one matrix and broadcast along a new unit axis are the same matrix. -/
theorem bias_one (b : (⟨S1, .f32⟩ : BufTy).Contents (Elt Ideal)) :
    shapeCast S1x1 b shapeCasts_S1_S1x1 = Cert.ReferenceIdeal.Read.val_main_v35 (F := Ideal) b := by
  funext j
  obtain ⟨u, q, rfl⟩ : ∃ (u : Fin 1) (q : Fin 1), j = ix2 u q := ⟨j 0, j 1, eq_ix2 j⟩
  rw [Cert.ReferenceIdeal.Read.val_main_v35_apply]
  refine (shapeCast_a_1a_apply b shapeCasts_S1_S1x1 u q).trans ?_
  refine congrArg b (funext fun a => Fin.ext ?_)
  match a with
  | ⟨0, _⟩ => show q.val = 0; omega

/-! ## Leaving the first kernel -/

/-- The reference's hidden-feature array, of the kernel program's arguments. -/
abbrev H (c : Dev nD) : (⟨S100000x128, .f32⟩ : BufTy).Contents (Elt Ideal) :=
  Cert.ReferenceIdeal.Read.val_main_v22 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The first kernel's output array holds the reference's hidden features. -/
theorem exit1 (c : Dev nD) : W2 m ρ c (Proc.devRef .tc main_v17) = H m c := by
  refine (W2_arr m ρ c 5).trans ?_
  rw [First.final (V1 m ρ) c]
  show hidden (V1 m ρ c main_v13) (V1 m ρ c main_arg0) (V1 m ρ c main_v14) (V1 m ρ c main_v15) (V1 m ρ c main_v16) = _
  rw [entry1_agg, entry1_feat, entry1_wrel, entry1_wroot, entry1_bias_cast, bias_row]
  exact (Ref.hidden_eq _ _ _ _ _).symm

/-- The edges' source row, computed by the first stretch, is untouched by the first kernel. -/
theorem kept_src (c : Dev nD) :
    W2 m ρ c (Proc.devRef .tc main_v1) = Cert.ReferenceIdeal.Read.val_main_v1 (F := Ideal) (m ((c : Thread nD τ).loc main_arg1)) := by
  refine (W2_of_ne m ρ c main_v1 (by decide)).trans ?_
  show StableHlo.after hostOps0 (W0 m ρ c) (Proc.devRef .tc main_v1) = _
  after_results
  rfl

/-- The edges' target row likewise. -/
theorem kept_dst (c : Dev nD) :
    W2 m ρ c (Proc.devRef .tc main_v3) = Cert.ReferenceIdeal.Read.val_main_v3 (F := Ideal) (m ((c : Thread nD τ).loc main_arg1)) := by
  refine (W2_of_ne m ρ c main_v3 (by decide)).trans ?_
  show StableHlo.after hostOps0 (W0 m ρ c) (Proc.devRef .tc main_v3) = _
  after_results
  rfl

theorem kept_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results

theorem kept_arg6 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results

theorem kept_arg7 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results

/-! ## Entering the second kernel -/

theorem entry2_feat (c : Dev nD) : V3 m ρ c main_v17 = H m c := by
  show StableHlo.after hostOps1 (W2 m ρ c) (Proc.devRef .tc main_v17) = _
  after_results
  exact exit1 m ρ c

theorem entry2_agg (c : Dev nD) : V3 m ρ c main_v27 = Ref.agg2 (H m c) (m ((c : Thread nD τ).loc main_arg1)) := by
  show StableHlo.after hostOps1 (W2 m ρ c) (Proc.devRef .tc main_v27) = _
  after_results
  rw [exit1 m ρ c, kept_src m ρ c, kept_dst m ρ c]
  rfl

theorem entry2_wrel (c : Dev nD) :
    V3 m ρ c main_v28 = Cert.ReferenceIdeal.Read.val_main_v33 (F := Ideal) (m ((c : Thread nD τ).loc main_arg5)) := by
  show StableHlo.after hostOps1 (W2 m ρ c) (Proc.devRef .tc main_v28) = _
  after_results
  rw [kept_arg5 m ρ c]
  rfl

theorem entry2_wroot (c : Dev nD) :
    V3 m ρ c main_v29 = Cert.ReferenceIdeal.Read.val_main_v38 (F := Ideal) (m ((c : Thread nD τ).loc main_arg7)) := by
  show StableHlo.after hostOps1 (W2 m ρ c) (Proc.devRef .tc main_v29) = _
  after_results
  rw [kept_arg7 m ρ c]
  rfl

theorem entry2_bias_cast (c : Dev nD) :
    V3 m ρ c main_v30 = shapeCast S1x1 (m ((c : Thread nD τ).loc main_arg6)) shapeCasts_S1_S1x1 := by
  show StableHlo.after hostOps1 (W2 m ρ c) (Proc.devRef .tc main_v30) = _
  after_results
  rw [kept_arg6 m ρ c]
  rfl

/-! ## Leaving the second kernel -/

/-- The result buffer at the last boundary holds the reference's result, of the kernel program's arguments. -/
theorem exit2 (c : Dev nD) :
    W4 m ρ c (Proc.devRef .tc main_v31)
      = Cert.ReferenceIdeal.Read.val_main_v46 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine (W4_arr m ρ c 5).trans ?_
  rw [Second.final (V3 m ρ) c]
  show score (V3 m ρ c main_v27) (V3 m ρ c main_v17) (V3 m ρ c main_v28) (V3 m ρ c main_v29) (V3 m ρ c main_v30) = _
  rw [entry2_agg, entry2_feat, entry2_wrel, entry2_wroot, entry2_bias_cast, bias_one]
  exact (Ref.result_eq _ _ _ _ _ _ _ _).symm

end Cert.GraphConv.Bridge

end
-- ==== Proof.lean ====
/-
  Two graph-convolution layers on 100000 nodes: a Pallas program against its jnp reference, on the extended reals.

  Both programs aggregate, for every node, the feature rows of its in-neighbours (a gather along the edges' sources
  and a scatter-add at their targets), and then apply a dense layer
      out = act ((Σₖ agg·W_rel + Σₖ x·W_root) + b)
  twice: 165 → 128 features with `act = max(·, 0)`, then 128 → 1 with the logistic function, the second aggregation
  being of the first layer's output. The Pallas program does the two dense layers in kernels over 20 blocks of 5000
  nodes each (rounding the matrix operands to bf16, which is the identity on the extended reals); the reference
  does them with whole-array matrix products, adds the bias between the two products rather than after them, and
  spells the logistic function as `1 / (1 + e^(-z))`. Sums of extended reals commute and associate, the blocks tile
  the node axis, and the aggregation is the same function on both sides, so both programs end with the same array;
  no finiteness of the inputs is used for that. The three frames are the generated ones (the reference's is its
  generated run with the result dropped), and the idealization rewrote nothing.
-/
import proofs.«131726_j83837761618434_1_alg».proof.Defs
import proofs.«131726_j83837761618434_1_alg».proof.Proof.Gen.Kernel
import proofs.«131726_j83837761618434_1_alg».proof.Proof.Gen.Kernel.Skeleton
import proofs.«131726_j83837761618434_1_alg».proof.Proof.Gen.Kernel.Launch
import proofs.«131726_j83837761618434_1_alg».proof.Proof.Gen.Kernel.Points
import proofs.«131726_j83837761618434_1_alg».proof.Proof.Gen.Kernel.Frame
import proofs.«131726_j83837761618434_1_alg».proof.Proof.Gen.KernelIdeal
import proofs.«131726_j83837761618434_1_alg».proof.Proof.Gen.KernelIdeal.Skeleton
import proofs.«131726_j83837761618434_1_alg».proof.Proof.Gen.KernelIdeal.Launch
import proofs.«131726_j83837761618434_1_alg».proof.Proof.Gen.KernelIdeal.Points
import proofs.«131726_j83837761618434_1_alg».proof.Proof.Gen.KernelIdeal.Frame
import proofs.«131726_j83837761618434_1_alg».proof.Proof.Gen.ReferenceIdeal
import proofs.«131726_j83837761618434_1_alg».proof.Proof.Gen.Pre_finite_inputs
import proofs.«131726_j83837761618434_1_alg».proof.Proof.Gen.ReferenceIdeal.Read
import proofs.«131726_j83837761618434_1_alg».proof.Proof.KernelRun
import proofs.«131726_j83837761618434_1_alg».proof.Proof.Bridge
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_kernel : Cert.frame_Kernel := fun m ρ _ => Cert.Kernel.Gen.frame m ρ

/-- So does the program read on the extended reals. -/
theorem frame_ideal : Cert.frame_KernelIdeal := fun m ρ _ => Cert.KernelIdeal.Gen.frame m ρ

/-- The reference runs and keeps its arguments: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

open Cert.KernelIdeal in
/-- The Pallas program's run on the extended reals: it terminates with the result buffer at the reference's result
    term of the arguments (the last boundary's contents, `Bridge.exit2`) and the arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v31)
        = Cert.ReferenceIdeal.Read.val_main_v46 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run defs _ _).mono (fun r h c =>
    ⟨(h c _ Cert.GraphConv.KRun.result_unscoped).trans (Cert.GraphConv.Bridge.exit2 m ρ c),
     (h c _ (Gen.mem_uc main_arg0 (by decide))).trans (Gen.W4_main_arg0 m ρ c),
     (h c _ (Gen.mem_uc main_arg1 (by decide))).trans (Gen.W4_main_arg1 m ρ c),
     (h c _ (Gen.mem_uc main_arg2 (by decide))).trans (Gen.W4_main_arg2 m ρ c),
     (h c _ (Gen.mem_uc main_arg3 (by decide))).trans (Gen.W4_main_arg3 m ρ c),
     (h c _ (Gen.mem_uc main_arg4 (by decide))).trans (Gen.W4_main_arg4 m ρ c),
     (h c _ (Gen.mem_uc main_arg5 (by decide))).trans (Gen.W4_main_arg5 m ρ c),
     (h c _ (Gen.mem_uc main_arg6 (by decide))).trans (Gen.W4_main_arg6 m ρ c),
     (h c _ (Gen.mem_uc main_arg7 (by decide))).trans (Gen.W4_main_arg7 m ρ c)⟩)
    (Cert.GraphConv.KRun.run_final m ρ)

/-- From memories agreeing on the arguments both programs end with the same result array: the reference's result
    term of the arguments (`kernel_run`; the reference's generated run and `val_main_v46_eq`). -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
